-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1000 : Shape := ⟨2, ![32, 1000]⟩
abbrev S32x1024x1024 : Shape := ⟨3, ![32, 1024, 1024]⟩
abbrev S_ : Shape := ⟨0, ![]⟩

class Facts : Prop where
  bcast_S_S32x1000 : S_.BroadcastsInDim S32x1000 (![] : Fin 0 → Fin S32x1000.rank)
  reducesTo_S32x1000_S_d0_1 : S32x1000.ReducesTo [0, 1] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S32x1000 .f32) (main_arg1 : FVec F S32x1024x1024 .f32) : IVec S_ 1 :=
  let main_v0 : FVec F S32x1000 .f32 := Host.absf main_arg0
  let main_cst : FVec F S_ .f32 := constant S_ .f32 0x7F800000#32
  let main_v1 : FVec F S32x1000 .f32 := broadcastInDim S32x1000 ![] bcast_S_S32x1000 main_cst
  let main_v2 : IVec S32x1000 1 := cmpf .olt main_v0 main_v1
  let main_c : IVec S_ 1 := constantI S_ 1 1#1
  let main_v3 : IVec S_ 1 := (fun x v => Host.reduce IntOp.andi x v reducesTo_S32x1000_S_d0_1 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1000 : Shape := ⟨2, ![32, 1000]⟩
abbrev S32x1024x1024 : Shape := ⟨3, ![32, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 9
  | .vmem => 4
  | .smem => 0
  | _ => 0

abbrev bufTy : (tb : Table) → Fin (tcTables nBuf tb) → BufTy
  | .hbm, ⟨0, _⟩ => ⟨S32x1000, .f32⟩
  | .hbm, ⟨1, _⟩ => ⟨S32x1024x1024, .f32⟩
  | .hbm, ⟨2, _⟩ => ⟨S_, .f32⟩
  | .hbm, ⟨3, _⟩ => ⟨S32x1000, .f32⟩
  | .hbm, ⟨4, _⟩ => ⟨S32x1000, .i1⟩
  | .hbm, ⟨5, _⟩ => ⟨S_, .f32⟩
  | .hbm, ⟨6, _⟩ => ⟨S32x1000, .f32⟩
  | .hbm, ⟨7, _⟩ => ⟨S32x1000, .f32⟩
  | .hbm, ⟨8, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S32x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S32x1000 : S_.BroadcastsInDim S32x1000 (![] : Fin 0 → Fin S32x1000.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x1024_d1_w32 : S1024x1024.Iotas .tc 32 [1]
  iota_S1024x1024_d0_w32 : S1024x1024.Iotas .tc 32 [0]
  rotates_S1024x1024_d1 : S1024x1024.Rotates 1 none
  rotates_S1024x1024_d0 : S1024x1024.Rotates 0 none
  shapeCasts_S1024x1024_S1x1024x1024 : S1024x1024.ShapeCasts S1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)

variable [Facts₀]

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1000 : Shape := ⟨2, ![32, 1000]⟩
abbrev S32x1024x1024 : Shape := ⟨3, ![32, 1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32x1000, .f32⟩
  | .hbm, ⟨1, _⟩ => ⟨S32x1024x1024, .f32⟩
  | .hbm, ⟨2, _⟩ => ⟨S_, .f32⟩
  | .hbm, ⟨3, _⟩ => ⟨S32x1000, .f32⟩
  | .hbm, ⟨4, _⟩ => ⟨S32x1000, .i1⟩
  | .hbm, ⟨5, _⟩ => ⟨S_, .f32⟩
  | .hbm, ⟨6, _⟩ => ⟨S32x1000, .f32⟩
  | .hbm, ⟨7, _⟩ => ⟨S32x1000, .f32⟩
  | .hbm, ⟨8, _⟩ => ⟨S_, .f32⟩
  | .hbm, ⟨9, _⟩ => ⟨S32x1024x1024, .f32⟩
  | .hbm, ⟨10, _⟩ => ⟨S32x1024x1024, .i1⟩
  | .hbm, ⟨11, _⟩ => ⟨S_, .f32⟩
  | .hbm, ⟨12, _⟩ => ⟨S32x1024x1024, .f32⟩
  | .hbm, ⟨13, _⟩ => ⟨S32x1024x1024, .f32⟩
  | .hbm, ⟨14, _⟩ => ⟨S_, .f32⟩
  | .hbm, ⟨15, _⟩ => ⟨S_, .f32⟩
  | .hbm, ⟨16, _⟩ => ⟨S32x1024x1024, .f32⟩
  | .hbm, ⟨17, _⟩ => ⟨S_, .f32⟩
  | .hbm, ⟨18, _⟩ => ⟨S_, .f32⟩
  | .hbm, ⟨19, _⟩ => ⟨S32x1024x1024, .f32⟩
  | _, _ => ⟨S32x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_call1_v0 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S32x1000 : S_.BroadcastsInDim S32x1000 (![] : Fin 0 → Fin S32x1000.rank)
  bcast_S_S32x1024x1024 : S_.BroadcastsInDim S32x1024x1024 (![] : Fin 0 → Fin S32x1024x1024.rank)
  bcast_S_S_ : S_.BroadcastsInDim S_ (![] : Fin 0 → Fin S_.rank)
  reduceWindows_S32x1024x1024_S32x1024x1024_w1s1p0_0_w4s1p2_1_w4s1p2_1 : S32x1024x1024.ReduceWindows (![1, 4, 4] : Fin 3 → Nat) ![1, 1, 1] ![0, 2, 2] ![0, 1, 1] S32x1024x1024
  h_S_ : 0 < S_.numel
  reduceWindows_S32x1024x1024_S32x1024x1024_w1s1p0_0_w4s1p1_2_w4s1p1_2 : S32x1024x1024.ReduceWindows (![1, 4, 4] : Fin 3 → Nat) ![1, 1, 1] ![0, 1, 1] ![0, 2, 2] S32x1024x1024

variable [Facts₀]

class Facts : Prop extends Facts₀ where

variable [Facts]
-- ==== Proof.LibWords.lean ====
/-
  Small natural numbers as 32-bit words.

  A natural number `n` below 2^31 written as a 32-bit word has its sign bit clear, so read unsigned or signed it is `n`
  itself. Everything a program computes on such words with signed comparisons and a signed remainder is then the
  arithmetic of the naturals: the word is not negative, it is at most any larger such word, and its remainder by a larger
  positive word is the word itself (a remainder by a divisor that is neither zero nor minus one is never at the
  division's corner, whatever unit computes it).
-/
import Idealize.ShloMosaic.PureOps

namespace Cert.Lib.Words

open Idealize.ShloMosaic

/-- Read unsigned, the word of `n < 2^31` is `n`. -/
theorem toNat_ofNat (n : Nat) (h : n < 2 ^ 31) : (BitVec.ofNat 32 n).toNat = n := by
  rw [BitVec.toNat_ofNat]; exact Nat.mod_eq_of_lt (by omega)

/-- Its sign bit is clear. -/
theorem msb_ofNat (n : Nat) (h : n < 2 ^ 31) : (BitVec.ofNat 32 n).msb = false := by
  rw [BitVec.msb_eq_false_iff_two_mul_lt, toNat_ofNat n h]; omega

/-- Read signed, it is `n` too. -/
theorem toInt_ofNat (n : Nat) (h : n < 2 ^ 31) : (BitVec.ofNat 32 n).toInt = (n : Int) := by
  rw [BitVec.toInt_eq_toNat_of_msb (msb_ofNat n h), toNat_ofNat n h]

/-- Two such words are equal only if the numbers are. -/
theorem ofNat_ne (n k : Nat) (hn : n < 2 ^ 31) (hk : k < 2 ^ 31) (hne : n ≠ k) : BitVec.ofNat 32 n ≠ BitVec.ofNat 32 k :=
  fun e => hne (by rw [← toNat_ofNat n hn, ← toNat_ofNat k hk, e])

/-- The signed remainder of `n` by a larger `d` is `n`: the truncated remainder of two numbers that are not negative is
    the remainder of the naturals. -/
theorem srem_ofNat (n d : Nat) (hn : n < d) (hd : d < 2 ^ 31) :
    (BitVec.ofNat 32 n).srem (BitVec.ofNat 32 d) = BitVec.ofNat 32 n := by
  apply BitVec.eq_of_toInt_eq
  rw [BitVec.toInt_srem, toInt_ofNat n (by omega), toInt_ofNat d hd]
  exact Int.tmod_eq_of_lt (by omega) (by omega)

/-- A positive `d < 2^31` is not a corner of the signed division: it is not the zero word, and it is not minus one (whose
    sign bit is set). -/
theorem not_corner (x : BitVec 32) (d : Nat) (h0 : 0 < d) (hd : d < 2 ^ 31) : ¬IntOp.SDivCorner x (BitVec.ofNat 32 d) := by
  rintro (h | ⟨-, h⟩)
  · exact ofNat_ne d 0 hd (by omega) (by omega) h
  · have hm := msb_ofNat d hd
    rw [h] at hm
    exact absurd hm (by decide)

/-- So on any unit the remainder of `n` by a larger `d` is `n`. -/
theorem remsi_ofNat (u : ArithUnit) (n d : Nat) (hn : n < d) (hd : d < 2 ^ 31) :
    IntOp.remsi u (BitVec.ofNat 32 n) (BitVec.ofNat 32 d) = BitVec.ofNat 32 n := by
  unfold IntOp.remsi
  rw [if_neg (not_corner _ d (by omega) hd)]
  exact srem_ofNat n d hn hd

/-- Such a word is not below zero (signed) … -/
theorem cmpi_slt_zero (n : Nat) (h : n < 2 ^ 31) : IntOp.cmpi .slt (BitVec.ofNat 32 n) 0#32 = 0#1 := by
  have e : (BitVec.ofNat 32 n).slt 0#32 = false := by
    rw [BitVec.slt_eq_decide, toInt_ofNat n h]
    exact decide_eq_false (by show ¬((n : Int) < (0#32 : BitVec 32).toInt); rw [show (0#32 : BitVec 32).toInt = 0 from rfl]; omega)
  show BitVec.ofBool ((BitVec.ofNat 32 n).slt 0#32) = 0#1
  rw [e]; rfl

/-- … it is at least zero … -/
theorem cmpi_sge_zero (n : Nat) (h : n < 2 ^ 31) : IntOp.cmpi .sge (BitVec.ofNat 32 n) 0#32 = 1#1 := by
  have e : (0#32 : BitVec 32).sle (BitVec.ofNat 32 n) = true := by
    rw [BitVec.sle_eq_decide, toInt_ofNat n h]
    exact decide_eq_true (by rw [show (0#32 : BitVec 32).toInt = 0 from rfl]; omega)
  show BitVec.ofBool ((0#32 : BitVec 32).sle (BitVec.ofNat 32 n)) = 1#1
  rw [e]; rfl

/-- … and at most any such word of a number at least `n`. -/
theorem cmpi_sle (n k : Nat) (hnk : n ≤ k) (hk : k < 2 ^ 31) :
    IntOp.cmpi .sle (BitVec.ofNat 32 n) (BitVec.ofNat 32 k) = 1#1 := by
  have e : (BitVec.ofNat 32 n).sle (BitVec.ofNat 32 k) = true := by
    rw [BitVec.sle_eq_decide, toInt_ofNat n (by omega), toInt_ofNat k hk]
    exact decide_eq_true (by omega)
  show BitVec.ofBool ((BitVec.ofNat 32 n).sle (BitVec.ofNat 32 k)) = 1#1
  rw [e]; rfl

/-- Read signed and cut off below at zero, it is `n`. -/
theorem toInt_toNat_ofNat (n : Nat) (h : n < 2 ^ 31) : (BitVec.ofNat 32 n).toInt.toNat = n := by
  rw [toInt_ofNat n h]; exact Int.toNat_natCast n

end Cert.Lib.Words
-- ==== Proof.Taps.lean ====
/-
  A shifted copy of a 1024 × 1024 array, read at a row and a column.

  The copy of `x` shifted by `s` places along an axis is made by rotating `x` by `s` around that axis and masking the
  places where the rotation wrapped around. Rotating by `s` puts entry `n − s` at place `n` for `n ≥ s`, and entry
  `n + 1024 − s` at place `n` for `n < s`. The mask is a comparison of the place's own coordinate (an iota along the
  axis, a 32-bit word below 2^31, so signed comparisons are the naturals') with `s`:
  * keeping the places `n ≥ s` gives the array shifted DOWN by `s` (entry `n − s` at `n`, the pad value in the first `s`);
  * keeping the places `n < s` gives the array shifted UP by `1024 − s` (entry `n + (1024 − s)` at `n`, the pad value in
    the last `1024 − s`).
-/
import Idealize.ShloMosaic.Lib.KernelVsHost
import Idealize.ShloMosaic.Lib.Pipeline.Value
import Idealize.ShloMosaic.Lib.ValueIdx
import proofs.«122441_j90984587199189_2_alg».proof.Proof.LibWords

namespace Cert.Morph

open Idealize.ShloMosaic Idealize.ShloMosaic.ValueIdx

/-- One image. -/
abbrev S : Shape := ⟨2, ![1024, 1024]⟩

/-- Signed `≥` on the words of two naturals below 2^31 is `≥` on the naturals. -/
theorem cmpi_sge_ofNat (n k : Nat) (hn : n < 2 ^ 31) (hk : k < 2 ^ 31) :
    IntOp.cmpi .sge (BitVec.ofNat 32 n) (BitVec.ofNat 32 k) = if k ≤ n then 1#1 else 0#1 := by
  show BitVec.ofBool ((BitVec.ofNat 32 k).sle (BitVec.ofNat 32 n)) = _
  rw [BitVec.sle_eq_decide, Cert.Lib.Words.toInt_ofNat n hn, Cert.Lib.Words.toInt_ofNat k hk]
  by_cases h : k ≤ n
  · rw [if_pos h, decide_eq_true (by exact_mod_cast h)]; rfl
  · rw [if_neg h, decide_eq_false (by exact_mod_cast h)]; rfl

/-- Signed `<` on the words of two naturals below 2^31 is `<` on the naturals. -/
theorem cmpi_slt_ofNat (n k : Nat) (hn : n < 2 ^ 31) (hk : k < 2 ^ 31) :
    IntOp.cmpi .slt (BitVec.ofNat 32 n) (BitVec.ofNat 32 k) = if n < k then 1#1 else 0#1 := by
  show BitVec.ofBool ((BitVec.ofNat 32 n).slt (BitVec.ofNat 32 k)) = _
  rw [BitVec.slt_eq_decide, Cert.Lib.Words.toInt_ofNat n hn, Cert.Lib.Words.toInt_ofNat k hk]
  by_cases h : n < k
  · rw [if_pos h, decide_eq_true (by exact_mod_cast h)]; rfl
  · rw [if_neg h, decide_eq_false (by exact_mod_cast h)]; rfl

section
variable {α : Type}

/-- `x` rotated by `s` along axis `a`, kept where the coordinate on `a` is at least `s`, `pad` elsewhere. -/
def tapGe (a : Fin S.rank) (hi : S.Iotas .tc 32 [a]) (hr : S.Rotates a none) (s : Nat) (pad : α) (x : S.Idx → α) : S.Idx → α :=
  select (cmpi .sge (iota .tc S 32 [a] hi) (broadcast S (BitVec.ofNat 32 s))) (dynamicRotate a (BitVec.ofNat 32 s) none x hr)
    (broadcast S pad)

/-- `x` rotated by `s` along axis `a`, kept where the coordinate on `a` is below `s`, `pad` elsewhere. -/
def tapLt (a : Fin S.rank) (hi : S.Iotas .tc 32 [a]) (hr : S.Rotates a none) (s : Nat) (pad : α) (x : S.Idx → α) : S.Idx → α :=
  select (cmpi .slt (iota .tc S 32 [a] hi) (broadcast S (BitVec.ofNat 32 s))) (dynamicRotate a (BitVec.ofNat 32 s) none x hr)
    (broadcast S pad)

/-- The rotation along the columns read at `(r, c)` is `x` at `(r, k)` when `k ≡ c − s` modulo 1024. -/
theorem rotate_col (s : Nat) (hs : s < 1024) (x : S.Idx → α) (hr : S.Rotates 1 none) (r c k : Fin 1024)
    (hk : k.val = (c.val + 1024 - s) % 1024) :
    dynamicRotate (1 : Fin S.rank) (BitVec.ofNat 32 s) none x hr (ix2 r c) = x (ix2 r k) := by
  refine dynamicRotate_apply 1 _ x hr (ix2 r c) (ix2 r k) fun b => ?_
  by_cases hb : b = 1
  · subst hb
    rw [if_pos rfl, Cert.Lib.Words.toNat_ofNat s (by omega)]
    show k.val = (c.val + 1024 - s % 1024) % 1024
    rw [hk, Nat.mod_eq_of_lt hs]
  · rw [if_neg hb]
    have hb2 : b.val < 2 := b.isLt
    have h0 : b = 0 := Fin.ext (by have : b.val ≠ 1 := fun e => hb (Fin.ext e); show b.val = 0; omega)
    subst h0; rfl

/-- The rotation along the rows read at `(r, c)` is `x` at `(k, c)` when `k ≡ r − s` modulo 1024. -/
theorem rotate_row (s : Nat) (hs : s < 1024) (x : S.Idx → α) (hr : S.Rotates 0 none) (r c k : Fin 1024)
    (hk : k.val = (r.val + 1024 - s) % 1024) :
    dynamicRotate (0 : Fin S.rank) (BitVec.ofNat 32 s) none x hr (ix2 r c) = x (ix2 k c) := by
  refine dynamicRotate_apply 0 _ x hr (ix2 r c) (ix2 k c) fun b => ?_
  by_cases hb : b = 0
  · subst hb
    rw [if_pos rfl, Cert.Lib.Words.toNat_ofNat s (by omega)]
    show k.val = (r.val + 1024 - s % 1024) % 1024
    rw [hk, Nat.mod_eq_of_lt hs]
  · rw [if_neg hb]
    have hb2 : b.val < 2 := b.isLt
    have h1 : b = 1 := Fin.ext (by have : b.val ≠ 0 := fun e => hb (Fin.ext e); show b.val = 1; omega)
    subst h1; rfl

/-- Shifted down along the columns: `x` at `(r, c − s)` from column `s` on, the pad value before. -/
theorem tapGe_col (s : Nat) (hs : s < 1024) (pad : α) (x : S.Idx → α) (hi : S.Iotas .tc 32 [1]) (hr : S.Rotates 1 none)
    (r c : Fin 1024) :
    tapGe 1 hi hr s pad x (ix2 r c) = if h : s ≤ c.val then x (ix2 r ⟨c.val - s, by omega⟩) else pad := by
  show Scalar.select (IntOp.cmpi .sge (iota .tc S 32 [1] hi (ix2 r c)) (BitVec.ofNat 32 s))
    (dynamicRotate (1 : Fin S.rank) (BitVec.ofNat 32 s) none x hr (ix2 r c)) pad = _
  rw [iota_single_apply]
  show Scalar.select (IntOp.cmpi .sge (BitVec.ofNat 32 c.val) (BitVec.ofNat 32 s)) _ pad = _
  rw [cmpi_sge_ofNat c.val s (by omega) (by omega)]
  by_cases h : s ≤ c.val
  · rw [if_pos h, dif_pos h, select_one]
    exact rotate_col s hs x hr r c ⟨c.val - s, by omega⟩ (by show c.val - s = _; omega)
  · rw [if_neg h, dif_neg h, select_zero]

/-- Shifted up along the columns: `x` at `(r, c + 1024 − s)` before column `s`, the pad value from there on. -/
theorem tapLt_col (s : Nat) (hs : s < 1024) (pad : α) (x : S.Idx → α) (hi : S.Iotas .tc 32 [1]) (hr : S.Rotates 1 none)
    (r c : Fin 1024) :
    tapLt 1 hi hr s pad x (ix2 r c) = if h : c.val < s then x (ix2 r ⟨c.val + 1024 - s, by omega⟩) else pad := by
  show Scalar.select (IntOp.cmpi .slt (iota .tc S 32 [1] hi (ix2 r c)) (BitVec.ofNat 32 s))
    (dynamicRotate (1 : Fin S.rank) (BitVec.ofNat 32 s) none x hr (ix2 r c)) pad = _
  rw [iota_single_apply]
  show Scalar.select (IntOp.cmpi .slt (BitVec.ofNat 32 c.val) (BitVec.ofNat 32 s)) _ pad = _
  rw [cmpi_slt_ofNat c.val s (by omega) (by omega)]
  by_cases h : c.val < s
  · rw [if_pos h, dif_pos h, select_one]
    exact rotate_col s hs x hr r c ⟨c.val + 1024 - s, by omega⟩ (by show c.val + 1024 - s = _; omega)
  · rw [if_neg h, dif_neg h, select_zero]

/-- Shifted down along the rows. -/
theorem tapGe_row (s : Nat) (hs : s < 1024) (pad : α) (x : S.Idx → α) (hi : S.Iotas .tc 32 [0]) (hr : S.Rotates 0 none)
    (r c : Fin 1024) :
    tapGe 0 hi hr s pad x (ix2 r c) = if h : s ≤ r.val then x (ix2 ⟨r.val - s, by omega⟩ c) else pad := by
  show Scalar.select (IntOp.cmpi .sge (iota .tc S 32 [0] hi (ix2 r c)) (BitVec.ofNat 32 s))
    (dynamicRotate (0 : Fin S.rank) (BitVec.ofNat 32 s) none x hr (ix2 r c)) pad = _
  rw [iota_single_apply]
  show Scalar.select (IntOp.cmpi .sge (BitVec.ofNat 32 r.val) (BitVec.ofNat 32 s)) _ pad = _
  rw [cmpi_sge_ofNat r.val s (by omega) (by omega)]
  by_cases h : s ≤ r.val
  · rw [if_pos h, dif_pos h, select_one]
    exact rotate_row s hs x hr r c ⟨r.val - s, by omega⟩ (by show r.val - s = _; omega)
  · rw [if_neg h, dif_neg h, select_zero]

/-- Shifted up along the rows. -/
theorem tapLt_row (s : Nat) (hs : s < 1024) (pad : α) (x : S.Idx → α) (hi : S.Iotas .tc 32 [0]) (hr : S.Rotates 0 none)
    (r c : Fin 1024) :
    tapLt 0 hi hr s pad x (ix2 r c) = if h : r.val < s then x (ix2 ⟨r.val + 1024 - s, by omega⟩ c) else pad := by
  show Scalar.select (IntOp.cmpi .slt (iota .tc S 32 [0] hi (ix2 r c)) (BitVec.ofNat 32 s))
    (dynamicRotate (0 : Fin S.rank) (BitVec.ofNat 32 s) none x hr (ix2 r c)) pad = _
  rw [iota_single_apply]
  show Scalar.select (IntOp.cmpi .slt (BitVec.ofNat 32 r.val) (BitVec.ofNat 32 s)) _ pad = _
  rw [cmpi_slt_ofNat r.val s (by omega) (by omega)]
  by_cases h : r.val < s
  · rw [if_pos h, dif_pos h, select_one]
    exact rotate_row s hs x hr r c ⟨r.val + 1024 - s, by omega⟩ (by show r.val + 1024 - s = _; omega)
  · rw [if_neg h, dif_neg h, select_zero]

/-! A property `P` that the pad value has holds of a shifted copy's entry exactly when it holds of the entry of `x` the
    copy shows there, if it shows one: "for every place `q` with `q + s = c`" says both at once. -/

theorem tapGe_col_iff (P : α → Prop) (s : Nat) (hs : s < 1024) (pad : α) (hpad : P pad) (x : S.Idx → α)
    (hi : S.Iotas .tc 32 [1]) (hr : S.Rotates 1 none) (r c : Fin 1024) :
    P (tapGe 1 hi hr s pad x (ix2 r c)) ↔ ∀ q : Fin 1024, q.val + s = c.val → P (x (ix2 r q)) := by
  rw [tapGe_col s hs]
  by_cases h : s ≤ c.val
  · rw [dif_pos h]
    constructor
    · intro H q hq
      have e : q = ⟨c.val - s, by omega⟩ := Fin.ext (by show q.val = c.val - s; omega)
      rw [e]; exact H
    · intro H; exact H _ (by show c.val - s + s = c.val; omega)
  · rw [dif_neg h]
    exact ⟨fun _ q hq => absurd hq (by omega), fun _ => hpad⟩

theorem tapLt_col_iff (P : α → Prop) (s : Nat) (hs : s < 1024) (pad : α) (hpad : P pad) (x : S.Idx → α)
    (hi : S.Iotas .tc 32 [1]) (hr : S.Rotates 1 none) (r c : Fin 1024) :
    P (tapLt 1 hi hr s pad x (ix2 r c)) ↔ ∀ q : Fin 1024, q.val + s = c.val + 1024 → P (x (ix2 r q)) := by
  rw [tapLt_col s hs]
  by_cases h : c.val < s
  · rw [dif_pos h]
    constructor
    · intro H q hq
      have e : q = ⟨c.val + 1024 - s, by omega⟩ := Fin.ext (by show q.val = c.val + 1024 - s; omega)
      rw [e]; exact H
    · intro H; exact H _ (by show c.val + 1024 - s + s = c.val + 1024; omega)
  · rw [dif_neg h]
    exact ⟨fun _ q hq => absurd hq (by have := q.isLt; omega), fun _ => hpad⟩

theorem tapGe_row_iff (P : α → Prop) (s : Nat) (hs : s < 1024) (pad : α) (hpad : P pad) (x : S.Idx → α)
    (hi : S.Iotas .tc 32 [0]) (hr : S.Rotates 0 none) (r c : Fin 1024) :
    P (tapGe 0 hi hr s pad x (ix2 r c)) ↔ ∀ p : Fin 1024, p.val + s = r.val → P (x (ix2 p c)) := by
  rw [tapGe_row s hs]
  by_cases h : s ≤ r.val
  · rw [dif_pos h]
    constructor
    · intro H p hp
      have e : p = ⟨r.val - s, by omega⟩ := Fin.ext (by show p.val = r.val - s; omega)
      rw [e]; exact H
    · intro H; exact H _ (by show r.val - s + s = r.val; omega)
  · rw [dif_neg h]
    exact ⟨fun _ p hp => absurd hp (by omega), fun _ => hpad⟩

theorem tapLt_row_iff (P : α → Prop) (s : Nat) (hs : s < 1024) (pad : α) (hpad : P pad) (x : S.Idx → α)
    (hi : S.Iotas .tc 32 [0]) (hr : S.Rotates 0 none) (r c : Fin 1024) :
    P (tapLt 0 hi hr s pad x (ix2 r c)) ↔ ∀ p : Fin 1024, p.val + s = r.val + 1024 → P (x (ix2 p c)) := by
  rw [tapLt_row s hs]
  by_cases h : r.val < s
  · rw [dif_pos h]
    constructor
    · intro H p hp
      have e : p = ⟨r.val + 1024 - s, by omega⟩ := Fin.ext (by show p.val = r.val + 1024 - s; omega)
      rw [e]; exact H
    · intro H; exact H _ (by show r.val + 1024 - s + s = r.val + 1024; omega)
  · rw [dif_neg h]
    exact ⟨fun _ p hp => absurd hp (by have := p.isLt; omega), fun _ => hpad⟩

end

end Cert.Morph
-- ==== Proof.LibWindowFold.lean ====
/-
  A padded window reduction by minimum or maximum, read by its universal property.

  A window reduction folds its operation, from the initial value, over every position of the window; a position that
  falls in the padding contributes the initial value again. For the minimum on a linear order the fold is the greatest
  lower bound of the initial value and the contributions: a number is below the fold exactly when it is below the
  initial value and below every contribution. Dually for the maximum. Stated this way the order in which the fold meets
  the positions, and how they are numbered, no longer matters: the positions are simply all the indices of the window.
-/
import Idealize.ShloMosaic.PureOps.Ideal

namespace Cert.Lib.WindowFold

open Idealize.ShloMosaic

/-- A number is below a left fold of minima exactly when it is below the start and below every term. -/
theorem le_foldl_min_iff {ι α : Type} [LinearOrder α] (g : ι → α) (z : α) :
    ∀ (l : List ι) (v : α), z ≤ l.foldl (fun r n => min r (g n)) v ↔ z ≤ v ∧ ∀ n ∈ l, z ≤ g n
  | [], v => by simp
  | a :: l, v => by
    rw [List.foldl_cons, le_foldl_min_iff g z l, le_min_iff]
    simp only [List.mem_cons, forall_eq_or_imp, and_assoc]

/-- A left fold of maxima is below a number exactly when the start and every term are. -/
theorem foldl_max_le_iff {ι α : Type} [LinearOrder α] (g : ι → α) (z : α) :
    ∀ (l : List ι) (v : α), l.foldl (fun r n => max r (g n)) v ≤ z ↔ v ≤ z ∧ ∀ n ∈ l, g n ≤ z
  | [], v => by simp
  | a :: l, v => by
    rw [List.foldl_cons, foldl_max_le_iff g z l, max_le_iff]
    simp only [List.mem_cons, forall_eq_or_imp, and_assoc]

variable {s t u : Shape} {φ : FTy}

/-- A window reduction by minimum over the extended reals, at the result index `j`: a number is below it exactly when it is
    below the initial value and, for every index `i` of the window, below the operand's entry at position
    `j · stride + i − lo` when that position is inside the operand, and below the initial value when it is padding. -/
theorem le_reduceWindow_min_iff (window strides lo hi : Fin s.rank → Nat) (x : s.Idx → Ideal φ) (init : u.Idx → Ideal φ)
    (h : s.ReduceWindows window strides lo hi t) (hu : 0 < u.numel) (j : t.Idx) (z : Ideal φ) :
    z ≤ Host.reduceWindow (FloatOps.minimumf : Ideal φ → Ideal φ → Ideal φ) window strides lo hi x init h hu j ↔
      z ≤ init (Shape.Idx.first hu) ∧ ∀ i : (⟨s.rank, window⟩ : Shape).Idx,
        z ≤ (if hin : ∀ a, lo a ≤ (j (a.cast h.1.symm)).val * strides a + (i a).val ∧
              (j (a.cast h.1.symm)).val * strides a + (i a).val - lo a < s.size a
            then x (fun a => ⟨(j (a.cast h.1.symm)).val * strides a + (i a).val - lo a, (hin a).2⟩)
            else init (Shape.Idx.first hu)) := by
  unfold Host.reduceWindow
  dsimp only
  simp only [Ideal.minimumf_def]
  rw [le_foldl_min_iff]
  refine and_congr_right fun _ => ?_
  constructor
  · intro H i
    obtain ⟨n, rfl⟩ := (⟨s.rank, window⟩ : Shape).rowMajor.symm.surjective i
    exact H n (List.mem_finRange _)
  · intro H n _
    exact H _

/-- The same for a window reduction by maximum: it is below a number exactly when the initial value and every
    contribution are. -/
theorem reduceWindow_max_le_iff (window strides lo hi : Fin s.rank → Nat) (x : s.Idx → Ideal φ) (init : u.Idx → Ideal φ)
    (h : s.ReduceWindows window strides lo hi t) (hu : 0 < u.numel) (j : t.Idx) (z : Ideal φ) :
    Host.reduceWindow (FloatOps.maximumf : Ideal φ → Ideal φ → Ideal φ) window strides lo hi x init h hu j ≤ z ↔
      init (Shape.Idx.first hu) ≤ z ∧ ∀ i : (⟨s.rank, window⟩ : Shape).Idx,
        (if hin : ∀ a, lo a ≤ (j (a.cast h.1.symm)).val * strides a + (i a).val ∧
              (j (a.cast h.1.symm)).val * strides a + (i a).val - lo a < s.size a
            then x (fun a => ⟨(j (a.cast h.1.symm)).val * strides a + (i a).val - lo a, (hin a).2⟩)
            else init (Shape.Idx.first hu)) ≤ z := by
  unfold Host.reduceWindow
  dsimp only
  simp only [Ideal.maximumf_def]
  rw [foldl_max_le_iff]
  refine and_congr_right fun _ => ?_
  constructor
  · intro H i
    obtain ⟨n, rfl⟩ := (⟨s.rank, window⟩ : Shape).rowMajor.symm.surjective i
    exact H n (List.mem_finRange _)
  · intro H n _
    exact H _

/-- The minimum form without the case split: the operand's index `k` sits at window position `i` of result index `j` when
    `k + lo = j · stride + i` on every axis; the padding positions are the ones with no such `k`, and they contribute the
    initial value, which is accounted for once. -/
theorem le_reduceWindow_min_iff_forall (window strides lo hi : Fin s.rank → Nat) (x : s.Idx → Ideal φ) (init : u.Idx → Ideal φ)
    (h : s.ReduceWindows window strides lo hi t) (hu : 0 < u.numel) (j : t.Idx) (z : Ideal φ) :
    z ≤ Host.reduceWindow (FloatOps.minimumf : Ideal φ → Ideal φ → Ideal φ) window strides lo hi x init h hu j ↔
      z ≤ init (Shape.Idx.first hu) ∧ ∀ (i : (⟨s.rank, window⟩ : Shape).Idx) (k : s.Idx),
        (∀ a, (k a).val + lo a = (j (a.cast h.1.symm)).val * strides a + (i a).val) → z ≤ x k := by
  rw [le_reduceWindow_min_iff]
  constructor
  · rintro ⟨h0, H⟩
    refine ⟨h0, fun i k hk => ?_⟩
    have hi := H i
    have hin : ∀ a, lo a ≤ (j (a.cast h.1.symm)).val * strides a + (i a).val ∧
        (j (a.cast h.1.symm)).val * strides a + (i a).val - lo a < s.size a := fun a => by
      have e := hk a
      have b := (k a).isLt
      generalize (j (a.cast h.1.symm)).val * strides a + (i a).val = P at e ⊢
      omega
    rw [dif_pos hin] at hi
    have e : (fun a => (⟨(j (a.cast h.1.symm)).val * strides a + (i a).val - lo a, (hin a).2⟩ : Fin (s.size a))) = k :=
      funext fun a => Fin.ext (by
        have e := hk a
        show (j (a.cast h.1.symm)).val * strides a + (i a).val - lo a = (k a).val
        generalize (j (a.cast h.1.symm)).val * strides a + (i a).val = P at e ⊢
        omega)
    rwa [e] at hi
  · rintro ⟨h0, H⟩
    refine ⟨h0, fun i => ?_⟩
    by_cases hin : ∀ a, lo a ≤ (j (a.cast h.1.symm)).val * strides a + (i a).val ∧
        (j (a.cast h.1.symm)).val * strides a + (i a).val - lo a < s.size a
    · rw [dif_pos hin]
      refine H i _ fun a => ?_
      have b := (hin a).1
      show (j (a.cast h.1.symm)).val * strides a + (i a).val - lo a + lo a = _
      generalize (j (a.cast h.1.symm)).val * strides a + (i a).val = P at b ⊢
      omega
    · rw [dif_neg hin]; exact h0

/-- The maximum form without the case split. -/
theorem reduceWindow_max_le_iff_forall (window strides lo hi : Fin s.rank → Nat) (x : s.Idx → Ideal φ) (init : u.Idx → Ideal φ)
    (h : s.ReduceWindows window strides lo hi t) (hu : 0 < u.numel) (j : t.Idx) (z : Ideal φ) :
    Host.reduceWindow (FloatOps.maximumf : Ideal φ → Ideal φ → Ideal φ) window strides lo hi x init h hu j ≤ z ↔
      init (Shape.Idx.first hu) ≤ z ∧ ∀ (i : (⟨s.rank, window⟩ : Shape).Idx) (k : s.Idx),
        (∀ a, (k a).val + lo a = (j (a.cast h.1.symm)).val * strides a + (i a).val) → x k ≤ z := by
  rw [reduceWindow_max_le_iff]
  constructor
  · rintro ⟨h0, H⟩
    refine ⟨h0, fun i k hk => ?_⟩
    have hi := H i
    have hin : ∀ a, lo a ≤ (j (a.cast h.1.symm)).val * strides a + (i a).val ∧
        (j (a.cast h.1.symm)).val * strides a + (i a).val - lo a < s.size a := fun a => by
      have e := hk a
      have b := (k a).isLt
      generalize (j (a.cast h.1.symm)).val * strides a + (i a).val = P at e ⊢
      omega
    rw [dif_pos hin] at hi
    have e : (fun a => (⟨(j (a.cast h.1.symm)).val * strides a + (i a).val - lo a, (hin a).2⟩ : Fin (s.size a))) = k :=
      funext fun a => Fin.ext (by
        have e := hk a
        show (j (a.cast h.1.symm)).val * strides a + (i a).val - lo a = (k a).val
        generalize (j (a.cast h.1.symm)).val * strides a + (i a).val = P at e ⊢
        omega)
    rwa [e] at hi
  · rintro ⟨h0, H⟩
    refine ⟨h0, fun i => ?_⟩
    by_cases hin : ∀ a, lo a ≤ (j (a.cast h.1.symm)).val * strides a + (i a).val ∧
        (j (a.cast h.1.symm)).val * strides a + (i a).val - lo a < s.size a
    · rw [dif_pos hin]
      refine H i _ fun a => ?_
      have b := (hin a).1
      show (j (a.cast h.1.symm)).val * strides a + (i a).val - lo a + lo a = _
      generalize (j (a.cast h.1.symm)).val * strides a + (i a).val = P at b ⊢
      omega
    · rw [dif_neg hin]; exact h0

end Cert.Lib.WindowFold
-- ==== Proof.Morph.lean ====
/-
  Erosion and dilation by a 4 × 4 window, computed two ways.

  One image is a 1024 × 1024 array of extended reals. Its EROSION at `(r, c)` is the minimum of the entries at
  `(r + d − 2, c + e − 2)` for `d, e ∈ {0, 1, 2, 3}` that fall inside the image (positions outside contribute +∞, the
  minimum's neutral element); its DILATION is the maximum of the entries at `(r + d − 1, c + e − 1)` that fall inside
  (outside: −∞).

  * Separably: a pass along the columns takes at each place the minimum (maximum) of four copies of the image shifted
    along the columns by the window's four offsets, the vacated places filled with +∞ (−∞); a second pass does the same
    along the rows of the result. A number is below the row pass of the column pass at `(r, c)` exactly when, for every
    `d` and every row `p` with `p + 2 = r + d`, it is below the column pass at `(p, c)`, that is, below `x (p, q)` for every
    `e` and every column `q` with `q + 2 = c + e`.
  * In one sweep: a window reduction over a stack of images with window `1 × 4 × 4`, stride one and padding `(2, 1)`
    (`(1, 2)` for the dilation) on both image axes. A number is below it at `(b, r, c)` exactly when it is below the
    entry at every `(b, p, q)` with `p + 2 = r + d`, `q + 2 = c + e`.

  Both are the greatest lower bound (least upper bound) of the same family of entries, so they are equal: the minimum
  over a product of two index ranges is the minimum over one of the minima over the other. Nothing here needs the
  entries to be finite.
-/
import proofs.«122441_j90984587199189_2_alg».proof.Proof.Taps
import proofs.«122441_j90984587199189_2_alg».proof.Proof.LibWindowFold

noncomputable section

namespace Cert.Morph

open Idealize.ShloMosaic Idealize.ShloMosaic.ValueIdx

/-- A stack of 32 images. -/
abbrev S3 : Shape := ⟨3, ![32, 1024, 1024]⟩
/-- A single number. -/
abbrev S0 : Shape := ⟨0, ![]⟩

/-- The f32 word of +∞ is the top of the extended reals, -/
theorem posInf : FloatOps.ofBits (F := Ideal) .f32 0x7F800000#32 = (⊤ : EReal) := by
  rw [Ideal.ofBits_def]; simp [Ideal.ofBits, Ideal.ieee]
/-- and the word of −∞ the bottom. -/
theorem negInf : FloatOps.ofBits (F := Ideal) .f32 0xFF800000#32 = (⊥ : EReal) := by
  rw [Ideal.ofBits_def]; simp [Ideal.ofBits, Ideal.ieee]

/-! ## One pass along an axis -/

/-- The erosion pass along axis `a`: the minimum of the image shifted by −2, −1, 0 and +1 along `a`, padded with +∞. -/
def erodeAxis (a : Fin S.rank) (hi : S.Iotas .tc 32 [a]) (hr : S.Rotates a none) (x : FVec Ideal S .f32) : FVec Ideal S .f32 :=
  minimumf
    (minimumf
      (minimumf (tapGe a hi hr 2 (FloatOps.ofBits .f32 0x7F800000#32) x) (tapGe a hi hr 1 (FloatOps.ofBits .f32 0x7F800000#32) x))
      x)
    (tapLt a hi hr 1023 (FloatOps.ofBits .f32 0x7F800000#32) x)

/-- The dilation pass along axis `a`: the maximum of the image shifted by −1, 0, +1 and +2 along `a`, padded with −∞. -/
def dilateAxis (a : Fin S.rank) (hi : S.Iotas .tc 32 [a]) (hr : S.Rotates a none) (x : FVec Ideal S .f32) : FVec Ideal S .f32 :=
  maximumf
    (maximumf
      (maximumf (tapGe a hi hr 1 (FloatOps.ofBits .f32 0xFF800000#32) x) x)
      (tapLt a hi hr 1023 (FloatOps.ofBits .f32 0xFF800000#32) x))
    (tapLt a hi hr 1022 (FloatOps.ofBits .f32 0xFF800000#32) x)

section
variable (x : FVec Ideal S .f32) (hi0 : S.Iotas .tc 32 [0]) (hr0 : S.Rotates 0 none) (hi1 : S.Iotas .tc 32 [1]) (hr1 : S.Rotates 1 none)
  (r c : Fin 1024) (z : EReal)

theorem le_erode_col :
    z ≤ erodeAxis 1 hi1 hr1 x (ix2 r c) ↔ ∀ e : Nat, e < 4 → ∀ q : Fin 1024, q.val + 2 = c.val + e → z ≤ x (ix2 r q) := by
  unfold erodeAxis
  rw [minimumf_apply, minimumf_apply, minimumf_apply, le_min_iff, le_min_iff, le_min_iff]
  have top : z ≤ (FloatOps.ofBits (F := Ideal) .f32 0x7F800000#32 : EReal) := by rw [posInf]; exact le_top
  refine (and_congr (and_congr (and_congr
    (tapGe_col_iff (fun y => z ≤ y) 2 (by omega) _ top x hi1 hr1 r c)
    (tapGe_col_iff (fun y => z ≤ y) 1 (by omega) _ top x hi1 hr1 r c)) Iff.rfl)
    (tapLt_col_iff (fun y => z ≤ y) 1023 (by omega) _ top x hi1 hr1 r c)).trans ?_
  constructor
  · rintro ⟨⟨⟨h0, h1⟩, h2⟩, h3⟩ e he q hq
    have : e = 0 ∨ e = 1 ∨ e = 2 ∨ e = 3 := by omega
    rcases this with rfl | rfl | rfl | rfl
    · exact h0 q (by omega)
    · exact h1 q (by omega)
    · have e : q = c := Fin.ext (by omega)
      rw [e]; exact h2
    · exact h3 q (by omega)
  · intro H
    exact ⟨⟨⟨fun q hq => H 0 (by omega) q (by omega), fun q hq => H 1 (by omega) q (by omega)⟩, H 2 (by omega) c rfl⟩,
      fun q hq => H 3 (by omega) q (by omega)⟩

theorem le_erode_row :
    z ≤ erodeAxis 0 hi0 hr0 x (ix2 r c) ↔ ∀ d : Nat, d < 4 → ∀ p : Fin 1024, p.val + 2 = r.val + d → z ≤ x (ix2 p c) := by
  unfold erodeAxis
  rw [minimumf_apply, minimumf_apply, minimumf_apply, le_min_iff, le_min_iff, le_min_iff]
  have top : z ≤ (FloatOps.ofBits (F := Ideal) .f32 0x7F800000#32 : EReal) := by rw [posInf]; exact le_top
  refine (and_congr (and_congr (and_congr
    (tapGe_row_iff (fun y => z ≤ y) 2 (by omega) _ top x hi0 hr0 r c)
    (tapGe_row_iff (fun y => z ≤ y) 1 (by omega) _ top x hi0 hr0 r c)) Iff.rfl)
    (tapLt_row_iff (fun y => z ≤ y) 1023 (by omega) _ top x hi0 hr0 r c)).trans ?_
  constructor
  · rintro ⟨⟨⟨h0, h1⟩, h2⟩, h3⟩ d hd p hp
    have : d = 0 ∨ d = 1 ∨ d = 2 ∨ d = 3 := by omega
    rcases this with rfl | rfl | rfl | rfl
    · exact h0 p (by omega)
    · exact h1 p (by omega)
    · have e : p = r := Fin.ext (by omega)
      rw [e]; exact h2
    · exact h3 p (by omega)
  · intro H
    exact ⟨⟨⟨fun p hp => H 0 (by omega) p (by omega), fun p hp => H 1 (by omega) p (by omega)⟩, H 2 (by omega) r rfl⟩,
      fun p hp => H 3 (by omega) p (by omega)⟩

theorem dilate_col_le :
    dilateAxis 1 hi1 hr1 x (ix2 r c) ≤ z ↔ ∀ e : Nat, e < 4 → ∀ q : Fin 1024, q.val + 1 = c.val + e → x (ix2 r q) ≤ z := by
  unfold dilateAxis
  rw [maximumf_apply, maximumf_apply, maximumf_apply, max_le_iff, max_le_iff, max_le_iff]
  have bot : (FloatOps.ofBits (F := Ideal) .f32 0xFF800000#32 : EReal) ≤ z := by rw [negInf]; exact bot_le
  refine (and_congr (and_congr (and_congr
    (tapGe_col_iff (fun y => y ≤ z) 1 (by omega) _ bot x hi1 hr1 r c) Iff.rfl)
    (tapLt_col_iff (fun y => y ≤ z) 1023 (by omega) _ bot x hi1 hr1 r c))
    (tapLt_col_iff (fun y => y ≤ z) 1022 (by omega) _ bot x hi1 hr1 r c)).trans ?_
  constructor
  · rintro ⟨⟨⟨h0, h1⟩, h2⟩, h3⟩ e he q hq
    have : e = 0 ∨ e = 1 ∨ e = 2 ∨ e = 3 := by omega
    rcases this with rfl | rfl | rfl | rfl
    · exact h0 q (by omega)
    · have e : q = c := Fin.ext (by omega)
      rw [e]; exact h1
    · exact h2 q (by omega)
    · exact h3 q (by omega)
  · intro H
    exact ⟨⟨⟨fun q hq => H 0 (by omega) q (by omega), H 1 (by omega) c rfl⟩, fun q hq => H 2 (by omega) q (by omega)⟩,
      fun q hq => H 3 (by omega) q (by omega)⟩

theorem dilate_row_le :
    dilateAxis 0 hi0 hr0 x (ix2 r c) ≤ z ↔ ∀ d : Nat, d < 4 → ∀ p : Fin 1024, p.val + 1 = r.val + d → x (ix2 p c) ≤ z := by
  unfold dilateAxis
  rw [maximumf_apply, maximumf_apply, maximumf_apply, max_le_iff, max_le_iff, max_le_iff]
  have bot : (FloatOps.ofBits (F := Ideal) .f32 0xFF800000#32 : EReal) ≤ z := by rw [negInf]; exact bot_le
  refine (and_congr (and_congr (and_congr
    (tapGe_row_iff (fun y => y ≤ z) 1 (by omega) _ bot x hi0 hr0 r c) Iff.rfl)
    (tapLt_row_iff (fun y => y ≤ z) 1023 (by omega) _ bot x hi0 hr0 r c))
    (tapLt_row_iff (fun y => y ≤ z) 1022 (by omega) _ bot x hi0 hr0 r c)).trans ?_
  constructor
  · rintro ⟨⟨⟨h0, h1⟩, h2⟩, h3⟩ d hd p hp
    have : d = 0 ∨ d = 1 ∨ d = 2 ∨ d = 3 := by omega
    rcases this with rfl | rfl | rfl | rfl
    · exact h0 p (by omega)
    · have e : p = r := Fin.ext (by omega)
      rw [e]; exact h1
    · exact h2 p (by omega)
    · exact h3 p (by omega)
  · intro H
    exact ⟨⟨⟨fun p hp => H 0 (by omega) p (by omega), H 1 (by omega) r rfl⟩, fun p hp => H 2 (by omega) p (by omega)⟩,
      fun p hp => H 3 (by omega) p (by omega)⟩

/-! ## The two passes together -/

theorem le_erode2 :
    z ≤ erodeAxis 0 hi0 hr0 (erodeAxis 1 hi1 hr1 x) (ix2 r c) ↔
      ∀ d e : Nat, d < 4 → e < 4 → ∀ p q : Fin 1024, p.val + 2 = r.val + d → q.val + 2 = c.val + e → z ≤ x (ix2 p q) := by
  rw [le_erode_row]
  constructor
  · intro H d e hd he p q hp hq
    exact (le_erode_col x hi1 hr1 p c z).mp (H d hd p hp) e he q hq
  · intro H d hd p hp
    exact (le_erode_col x hi1 hr1 p c z).mpr fun e he q hq => H d e hd he p q hp hq

theorem dilate2_le :
    dilateAxis 0 hi0 hr0 (dilateAxis 1 hi1 hr1 x) (ix2 r c) ≤ z ↔
      ∀ d e : Nat, d < 4 → e < 4 → ∀ p q : Fin 1024, p.val + 1 = r.val + d → q.val + 1 = c.val + e → x (ix2 p q) ≤ z := by
  rw [dilate_row_le]
  constructor
  · intro H d e hd he p q hp hq
    exact (dilate_col_le x hi1 hr1 p c z).mp (H d hd p hp) e he q hq
  · intro H d hd p hp
    exact (dilate_col_le x hi1 hr1 p c z).mpr fun e he q hq => H d e hd he p q hp hq

end

/-! ## The window reduction over the stack, at one image -/

section
variable (Y : S3.Idx → Ideal .f32) (init : S0.Idx → Ideal .f32) (hu : 0 < S0.numel) (b : Fin 32) (y : S.Idx → Ideal .f32)
  (hY : ∀ p q : Fin 1024, Y (ix3 b p q) = y (ix2 p q)) (r c : Fin 1024) (z : EReal)

include hY

theorem le_reduceWindow_erode (hinit : init (Shape.Idx.first hu) = (⊤ : EReal))
    (hw : S3.ReduceWindows (![1, 4, 4] : Fin 3 → Nat) ![1, 1, 1] ![0, 2, 2] ![0, 1, 1] S3) :
    z ≤ Host.reduceWindow (FloatOps.minimumf : Ideal .f32 → Ideal .f32 → Ideal .f32) ![1, 4, 4] ![1, 1, 1] ![0, 2, 2] ![0, 1, 1]
        Y init hw hu (ix3 b r c) ↔
      ∀ d e : Nat, d < 4 → e < 4 → ∀ p q : Fin 1024, p.val + 2 = r.val + d → q.val + 2 = c.val + e → z ≤ y (ix2 p q) := by
  rw [Cert.Lib.WindowFold.le_reduceWindow_min_iff_forall, hinit]
  constructor
  · rintro ⟨-, H⟩ d e hd he p q hp hq
    rw [← hY]
    refine H (ix3 (0 : Fin 1) (⟨d, hd⟩ : Fin 4) (⟨e, he⟩ : Fin 4)) (ix3 b p q) fun a => ?_
    match a with
    | ⟨0, _⟩ => show b.val + 0 = b.val * 1 + 0; omega
    | ⟨1, _⟩ => show p.val + 2 = r.val * 1 + d; omega
    | ⟨2, _⟩ => show q.val + 2 = c.val * 1 + e; omega
  · intro H
    refine ⟨le_top, fun i k hk => ?_⟩
    have h0 : (k 0).val + 0 = b.val * 1 + (i 0).val := hk 0
    have h1 : (k 1).val + 2 = r.val * 1 + (i 1).val := hk 1
    have h2 : (k 2).val + 2 = c.val * 1 + (i 2).val := hk 2
    have i0 : (i 0).val < 1 := (i 0).isLt
    have i1 : (i 1).val < 4 := (i 1).isLt
    have i2 : (i 2).val < 4 := (i 2).isLt
    have ek : k = ix3 b (⟨(k 1).val, (k 1).isLt⟩ : Fin 1024) (⟨(k 2).val, (k 2).isLt⟩ : Fin 1024) :=
      funext fun a => Fin.ext (by
        match a with
        | ⟨0, _⟩ => show (k 0).val = b.val; omega
        | ⟨1, _⟩ => rfl
        | ⟨2, _⟩ => rfl)
    rw [ek, hY]
    exact H (i 1).val (i 2).val i1 i2 _ _ (by show (k 1).val + 2 = r.val + (i 1).val; omega)
      (by show (k 2).val + 2 = c.val + (i 2).val; omega)

theorem reduceWindow_dilate_le (hinit : init (Shape.Idx.first hu) = (⊥ : EReal))
    (hw : S3.ReduceWindows (![1, 4, 4] : Fin 3 → Nat) ![1, 1, 1] ![0, 1, 1] ![0, 2, 2] S3) :
    Host.reduceWindow (FloatOps.maximumf : Ideal .f32 → Ideal .f32 → Ideal .f32) ![1, 4, 4] ![1, 1, 1] ![0, 1, 1] ![0, 2, 2]
        Y init hw hu (ix3 b r c) ≤ z ↔
      ∀ d e : Nat, d < 4 → e < 4 → ∀ p q : Fin 1024, p.val + 1 = r.val + d → q.val + 1 = c.val + e → y (ix2 p q) ≤ z := by
  rw [Cert.Lib.WindowFold.reduceWindow_max_le_iff_forall, hinit]
  constructor
  · rintro ⟨-, H⟩ d e hd he p q hp hq
    rw [← hY]
    refine H (ix3 (0 : Fin 1) (⟨d, hd⟩ : Fin 4) (⟨e, he⟩ : Fin 4)) (ix3 b p q) fun a => ?_
    match a with
    | ⟨0, _⟩ => show b.val + 0 = b.val * 1 + 0; omega
    | ⟨1, _⟩ => show p.val + 1 = r.val * 1 + d; omega
    | ⟨2, _⟩ => show q.val + 1 = c.val * 1 + e; omega
  · intro H
    refine ⟨bot_le, fun i k hk => ?_⟩
    have h0 : (k 0).val + 0 = b.val * 1 + (i 0).val := hk 0
    have h1 : (k 1).val + 1 = r.val * 1 + (i 1).val := hk 1
    have h2 : (k 2).val + 1 = c.val * 1 + (i 2).val := hk 2
    have i0 : (i 0).val < 1 := (i 0).isLt
    have i1 : (i 1).val < 4 := (i 1).isLt
    have i2 : (i 2).val < 4 := (i 2).isLt
    have ek : k = ix3 b (⟨(k 1).val, (k 1).isLt⟩ : Fin 1024) (⟨(k 2).val, (k 2).isLt⟩ : Fin 1024) :=
      funext fun a => Fin.ext (by
        match a with
        | ⟨0, _⟩ => show (k 0).val = b.val; omega
        | ⟨1, _⟩ => rfl
        | ⟨2, _⟩ => rfl)
    rw [ek, hY]
    exact H (i 1).val (i 2).val i1 i2 _ _ (by show (k 1).val + 1 = r.val + (i 1).val; omega)
      (by show (k 2).val + 1 = c.val + (i 2).val; omega)

variable (hi0 : S.Iotas .tc 32 [0]) (hr0 : S.Rotates 0 none) (hi1 : S.Iotas .tc 32 [1]) (hr1 : S.Rotates 1 none)

/-- EROSION: the window minimum over the stack, at image `b`, is the row pass of the column pass of that image. -/
theorem erode_eq (hinit : init (Shape.Idx.first hu) = (⊤ : EReal))
    (hw : S3.ReduceWindows (![1, 4, 4] : Fin 3 → Nat) ![1, 1, 1] ![0, 2, 2] ![0, 1, 1] S3) :
    Host.reduceWindow (FloatOps.minimumf : Ideal .f32 → Ideal .f32 → Ideal .f32) ![1, 4, 4] ![1, 1, 1] ![0, 2, 2] ![0, 1, 1]
        Y init hw hu (ix3 b r c) = erodeAxis 0 hi0 hr0 (erodeAxis 1 hi1 hr1 y) (ix2 r c) :=
  eq_of_forall_le_iff fun z =>
    (le_reduceWindow_erode Y init hu b y hY r c z hinit hw).trans (le_erode2 y hi0 hr0 hi1 hr1 r c z).symm

/-- DILATION: the window maximum over the stack, at image `b`, is the row pass of the column pass of that image. -/
theorem dilate_eq (hinit : init (Shape.Idx.first hu) = (⊥ : EReal))
    (hw : S3.ReduceWindows (![1, 4, 4] : Fin 3 → Nat) ![1, 1, 1] ![0, 1, 1] ![0, 2, 2] S3) :
    Host.reduceWindow (FloatOps.maximumf : Ideal .f32 → Ideal .f32 → Ideal .f32) ![1, 4, 4] ![1, 1, 1] ![0, 1, 1] ![0, 2, 2]
        Y init hw hu (ix3 b r c) = dilateAxis 0 hi0 hr0 (dilateAxis 1 hi1 hr1 y) (ix2 r c) :=
  eq_of_forall_ge_iff fun z =>
    (reduceWindow_dilate_le Y init hu b y hY r c z hinit hw).trans (dilate2_le y hi0 hr0 hi1 hr1 r c z).symm

end

end Cert.Morph

end
-- ==== Proof.KernelValue.lean ====
/-
  What the kernel leaves in its two results.

  The grid has one point per image. At point `t` the body loads image `t` of the mask, thresholds it (entries below one
  half become zero), erodes it by two four-tap minimum passes (along the columns, then along the rows) and dilates the
  result by two four-tap maximum passes, and stores the outcome as image `t` of the result. So the result array is one
  function of the mask: at `(b, r, c)` the opening of image `b`, read at `(r, c)`. The 32 blocks tile the result array, so
  that function is all of it. The thresholded score is computed by host operations before the kernel is launched and is
  left alone by it.
-/
import proofs.«122441_j90984587199189_2_alg».proof.Proof.Gen.KernelIdeal.Value
import proofs.«122441_j90984587199189_2_alg».proof.Proof.Morph
import Idealize.ShloMosaic.Lib.StableHlo.Run

set_option maxRecDepth 16384

noncomputable section

namespace Cert.KernelIdeal.Opening

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Morph (erodeAxis dilateAxis)

/-! ## One image -/

/-- Entries below one half become zero. -/
def thresh (x : FVec Ideal S1024x1024 .f32) : FVec Ideal S1024x1024 .f32 :=
  select (cmpf .oge x (broadcast S1024x1024 (FloatOps.ofBits .f32 0x3F000000#32))) x
    (broadcast S1024x1024 (FloatOps.ofBits .f32 0x00000000#32))

/-- The opening of the thresholded image: eroded along the columns and the rows, then dilated along the columns and the rows. -/
def openImage (x : FVec Ideal S1024x1024 .f32) : FVec Ideal S1024x1024 .f32 :=
  dilateAxis 0 iota_S1024x1024_d0_w32 rotates_S1024x1024_d0
    (dilateAxis 1 iota_S1024x1024_d1_w32 rotates_S1024x1024_d1
      (erodeAxis 0 iota_S1024x1024_d0_w32 rotates_S1024x1024_d0
        (erodeAxis 1 iota_S1024x1024_d1_w32 rotates_S1024x1024_d1 (thresh x))))

theorem hz : (![0, 0, 0] : Fin 3 → Nat) = fun _ => 0 := funext fun a => by fin_cases a <;> rfl

/-- What the body stores is the opening of the image it loaded, as a one-image block. -/
theorem out_eq (x0 : Vec Ideal S1x1024x1024 .f32) :
    out0_1 (F := Ideal) x0 = shapeCast S1x1024x1024
      (openImage (shapeCast S1024x1024 x0 shapeCasts_S1x1024x1024_S1024x1024)) shapeCasts_S1024x1024_S1x1024x1024 := by
  unfold out0_1
  rw [View.canon_unit_zero hz]
  simp only [View.ld_unit_zero (S := S1x1024x1024) hz]
  rfl

/-! ## The whole result array -/

/-- The result array as one function of the mask: at `(b, r, c)` the opening of image `b` at `(r, c)`. -/
def opened (X : S32x1024x1024.Idx → Ideal .f32) : S32x1024x1024.Idx → Ideal .f32 :=
  fun i => openImage (fun j => X (ix3 (i 0) (j 0) (j 1))) (ix2 (i 1) (i 2))

/-- A one-image block `x0` that is image `bb` of `X`, opened and read at `y`, is `opened X` at the place `i` of the array
    where `y` sits. -/
theorem block_eq (X : S32x1024x1024.Idx → Ideal .f32) (x0 : Vec Ideal S1x1024x1024 .f32) (bb : Fin 32)
    (hx : ∀ p q : Fin 1024, x0 (ix3 (0 : Fin 1) p q) = X (ix3 bb p q)) (y : S1x1024x1024.Idx) (i : S32x1024x1024.Idx)
    (h0 : (i 0).val = bb.val) (h1 : (i 1).val = (y 1).val) (h2 : (i 2).val = (y 2).val) :
    shapeCast S1x1024x1024 (openImage (shapeCast S1024x1024 x0 shapeCasts_S1x1024x1024_S1024x1024))
      shapeCasts_S1024x1024_S1x1024x1024 y = opened X i := by
  rw [shapeCast_addUnit_apply]
  unfold opened
  have ei : (fun a => y a.succ : S1024x1024.Idx) = ix2 (i 1) (i 2) := funext fun a => Fin.ext (by
    match a with
    | ⟨0, _⟩ => exact h1.symm
    | ⟨1, _⟩ => exact h2.symm)
  have ex : shapeCast S1024x1024 x0 shapeCasts_S1x1024x1024_S1024x1024 = fun j => X (ix3 (i 0) (j 0) (j 1)) :=
    funext fun j => by
      rw [shapeCast_dropUnit_apply]
      have ec : (Fin.cons ⟨0, Nat.one_pos⟩ j : S1x1024x1024.Idx) = ix3 (0 : Fin 1) (j 0 : Fin 1024) (j 1 : Fin 1024) :=
        funext fun a => by
          match a with
          | ⟨0, _⟩ => rfl
          | ⟨1, _⟩ => rfl
          | ⟨2, _⟩ => rfl
      refine (congrArg x0 ec).trans ((hx (j 0) (j 1)).trans (congrArg X (funext fun a => Fin.ext ?_)))
      match a with
      | ⟨0, _⟩ => exact h0.symm
      | ⟨1, _⟩ => rfl
      | ⟨2, _⟩ => rfl
  rw [ei, ex]
  rfl

variable (m : (ℓ : Loc nD τ sig) → Buf (Elt Ideal) ℓ) (ρ : Dev nD → PrngReg)

/-- The index maps, decided over the 32 points: both windows sit at image `t`'s block and at block zero on the image axes. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 ∧ win0_1.index t (0 : Fin 3) < 32 :=
  (by decide +kernel : ∀ t : Fin grid0.N, _)

/-- Every image is some point's. -/
theorem idx_onto : ∀ q0 : Fin 32, ∃ t : Fin cfg0.N, win0_1.index t = ![q0.val, 0, 0] :=
  (by decide +kernel : ∀ q0 : Fin 32, ∃ t : Fin grid0.N, win0_1.index t = ![q0.val, 0, 0])

/-- What point `t` writes back is block `t` of `opened` of the mask as the region finds it. -/
theorem flushed_eq (c : Dev nD) (t : Fin cfg0.N) :
    (dats m 0 c).flushed 1 t = ((cfg0.win 1).blk t).view.read (Elt Ideal) (opened (V m c main_arg1)) := by
  rw [Value.flushed1, out_eq]
  obtain ⟨e0, e1, e2, e3, e4, e5⟩ := idx_facts t
  funext y
  have y0 : (y 0).val < 1 := (y 0).isLt
  show shapeCast S1x1024x1024 (openImage (shapeCast S1024x1024 (iblk m c 0 t) shapeCasts_S1x1024x1024_S1024x1024))
    shapeCasts_S1024x1024_S1x1024x1024 y = opened (V m c main_arg1) (((cfg0.win 1).blk t).view.emb y)
  refine block_eq (V m c main_arg1) (iblk m c 0 t) ⟨win0_1.index t (0 : Fin 3), e5⟩ (fun p q => ?_) y
    (((cfg0.win 1).blk t).view.emb y) ?_ ?_ ?_
  · show V m c main_arg1 (((cfg0.win 0).blk t).view.emb (ix3 (0 : Fin 1) p q)) = V m c main_arg1 (ix3 ⟨win0_1.index t (0 : Fin 3), e5⟩ p q)
    refine congrArg (V m c main_arg1) (funext fun a => Fin.ext ?_)
    match a with
    | ⟨0, _⟩ => show win0_0.index t (0 : Fin 3) * 1 + 1 * 0 = win0_1.index t (0 : Fin 3); omega
    | ⟨1, _⟩ => show win0_0.index t (1 : Fin 3) * 1024 + 1 * p.val = p.val; omega
    | ⟨2, _⟩ => show win0_0.index t (2 : Fin 3) * 1024 + 1 * q.val = q.val; omega
  · show win0_1.index t (0 : Fin 3) * 1 + 1 * (y 0).val = win0_1.index t (0 : Fin 3); omega
  · show win0_1.index t (1 : Fin 3) * 1024 + 1 * (y 1).val = (y 1).val; omega
  · show win0_1.index t (2 : Fin 3) * 1024 + 1 * (y 2).val = (y 2).val; omega

/-- An index of the array is in point `t`'s block iff each coordinate is in the block's range on its axis. -/
theorem mem_blk (t : Fin cfg0.N) (i : S32x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v3).slice (win0_1.rect t)).set ↔ _
  rw [View.set_slice_whole, Rect.mem_set_unit]
  exact Iff.rfl

/-- The 32 blocks cover the array: `(b, r, c)` is in the block of the point that holds image `b`. -/
theorem cover (i : S32x1024x1024.Idx) : ∃ t : Fin cfg0.N, (cfg0.win 1).flush t = true ∧ i ∈ ((cfg0.win 1).blk t).view.set := by
  obtain ⟨t, ht⟩ := idx_onto (i 0)
  have q0 : win0_1.index t (0 : Fin 3) = (i 0).val := congrFun ht 0
  have q1 : win0_1.index t (1 : Fin 3) = 0 := congrFun ht 1
  have q2 : win0_1.index t (2 : Fin 3) = 0 := congrFun ht 2
  have b1 : (i 1).val < 1024 := (i 1).isLt
  have b2 : (i 2).val < 1024 := (i 2).isLt
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- The result array after the run is `opened` of the mask as launched. -/
theorem final (c : Dev nD) : (dats m 0 c).arrAt 1 cfg0.N = opened (m ((c : Thread nD τ).loc main_arg1)) := by
  rw [(dats m 0 c).arrAt_eq_of_cover 1 (opened (V m c main_arg1)) (fun t _ => flushed_eq m c t) cover, V_main_arg1]

/-! ## The score -/

/-- Scores below one half become zero (the host operations before the launch). -/
def scoreSel (x : FVec Ideal S32x1000 .f32) : FVec Ideal S32x1000 .f32 :=
  select (cmpf .oge x (broadcastInDim S32x1000 ![] bcast_S_S32x1000 (constant S_ .f32 0x3F000000#32))) x
    (broadcastInDim S32x1000 ![] bcast_S_S32x1000 (constant S_ .f32 0x00000000#32))

/-- The region finds the thresholded score in its buffer, -/
theorem V_main_v2 (c : Dev nD) : (V m c main_v2 : S32x1000.Idx → Ideal .f32) = scoreSel (m ((c : Thread nD τ).loc main_arg0)) := by
  dsimp only [V]
  simp only [hostOps0, hostOps0_1, List.flatten_cons, List.flatten_nil, List.append_nil, List.cons_append, List.nil_append]
  after_results
  rfl

/-- and leaves it there: no window stages it. -/
theorem post_v2 (r : PUnit × MemSt nD τ sig (Elt Ideal)) (h : Pipeline.FramePost cfgs (dats m) 0 (V m) r) (c : Dev nD) :
    r.2.mem ((c : Thread nD τ).loc main_v2) = scoreSel (m ((c : Thread nD τ).loc main_arg0)) :=
  ((h c).2 main_v2 (Pipeline.mem_restRefs_of main_v2 (by decide) (by decide))).trans (V_main_v2 m c)

/-! ## The run -/

/-- Every weakly fair execution terminates with the score thresholded, the mask opened image by image, and the arguments
    unchanged. -/
theorem run : θ_run defs (onTc (τ := τ) (main (F := Ideal))) ⟨m, fun _ => 0, ρ⟩ fun r => ∀ c : Dev nD,
      r.2.mem ((c : Thread nD τ).loc main_v2) = scoreSel (m ((c : Thread nD τ).loc main_arg0))
      ∧ r.2.mem ((c : Thread nD τ).loc main_v3) = opened (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post_v2 m r h c, (Value.post1 m r h c).trans (final m c),
      Value.kept_main_arg0 m r h c, Value.kept_main_arg1 m r h c⟩)
    (run_main m ρ)

end Cert.KernelIdeal.Opening

end
-- ==== Proof.Bridge.lean ====
/-
  The reference computes the same two functions.

  The reference thresholds the mask (entries below one half become zero), takes the window minimum of the stack with a
  `1 × 4 × 4` window padded `(2, 1)` with +∞, and then the window maximum padded `(1, 2)` with −∞. The window never
  leaves its image, and its padded positions are exactly the ones the four-tap passes fill with ±∞, so at `(b, r, c)` the
  window minimum of the stack is the erosion of image `b` at `(r, c)`, and the window maximum of that is its dilation:
  the opening of image `b`, which is what the kernel stores. The thresholded score is the same expression on both sides.
-/
import proofs.«122441_j90984587199189_2_alg».proof.Proof.Gen.ReferenceIdeal.Read
import proofs.«122441_j90984587199189_2_alg».proof.Proof.KernelValue

noncomputable section

namespace Cert.Bridge

open Idealize.ShloMosaic Idealize.ShloMosaic.ValueIdx
open Cert.ReferenceIdeal Cert.ReferenceIdeal.Gen Cert.ReferenceIdeal.Read
open Cert.KernelIdeal.Opening (opened openImage thresh scoreSel)

/-- The reference's thresholded mask at `(b, p, q)` is the thresholded image `b` at `(p, q)`. -/
theorem thresh_eq (x1 : S32x1024x1024.Idx → Ideal .f32) (b : Fin 32) (p q : Fin 1024) :
    val_main_v5 (F := Ideal) x1 (ix3 b p q) = thresh (fun j => x1 (ix3 b (j 0) (j 1))) (ix2 p q) := by
  rw [val_main_v5_apply, val_main_v4_apply, val_main_v3_apply, val_main_cst_1_apply, val_main_call1_v0_apply,
    val_main_cst_2_apply]
  rfl

/-- The window minimum starts from +∞, -/
theorem init_min : val_main_v6 (F := Ideal) (Shape.Idx.first h_S_) = (⊤ : EReal) := by
  rw [val_main_v6_apply, val_main_cst_3_apply, Cert.Morph.posInf]

/-- and the window maximum from −∞. -/
theorem init_max : val_main_v8 (F := Ideal) (Shape.Idx.first h_S_) = (⊥ : EReal) := by
  rw [val_main_v8_apply, val_main_cst_4_apply, Cert.Morph.negInf]

/-- The reference's mask result is the opening of each image. -/
theorem mask_eq (x1 : S32x1024x1024.Idx → Ideal .f32) : val_main_v9 (F := Ideal) x1 = opened x1 := by
  funext i
  obtain ⟨b, r, c, rfl⟩ : ∃ (b : Fin 32) (r c : Fin 1024), i = ix3 b r c := ⟨i 0, i 1, i 2, eq_ix3 i⟩
  show Host.reduceWindow (FloatOps.maximumf : Ideal .f32 → Ideal .f32 → Ideal .f32) ![1, 4, 4] ![1, 1, 1] ![0, 1, 1] ![0, 2, 2]
      (val_main_v7 (F := Ideal) x1) (val_main_v8 (F := Ideal)) reduceWindows_S32x1024x1024_S32x1024x1024_w1s1p0_0_w4s1p1_2_w4s1p1_2 h_S_ (ix3 b r c)
    = openImage (fun j => x1 (ix3 b (j 0) (j 1))) (ix2 r c)
  unfold openImage
  refine Cert.Morph.dilate_eq (val_main_v7 (F := Ideal) x1) (val_main_v8 (F := Ideal)) h_S_ b _ (fun p q => ?_) r c _ _ _ _ init_max _
  exact Cert.Morph.erode_eq (val_main_v5 (F := Ideal) x1) (val_main_v6 (F := Ideal)) h_S_ b _ (fun p' q' => thresh_eq x1 b p' q') p q
    _ _ _ _ init_min _

/-- The reference's score result is the kernel's host expression. -/
theorem score_eq (x0 : S32x1000.Idx → Ideal .f32) : val_main_v2 (F := Ideal) x0 = scoreSel x0 := rfl

end Cert.Bridge

end
-- ==== Proof.lean ====
/-
  The kernel filters detections: scores below one half are zeroed, and each of the 32 mask images is thresholded the same
  way and then opened (eroded, then dilated) with a 4 × 4 window whose border never wins. The kernel erodes and dilates
  separably, one four-tap pass along the columns and one along the rows, each tap a rotated copy of the image masked by a
  comparison of the coordinate; the reference reduces 4 × 4 windows of the padded stack in one sweep. Over the extended
  reals both are the greatest lower bound (least upper bound) of the same sixteen entries, so the two results are equal
  entry by entry; no entry needs to be finite for this. Proof/Morph.lean has that law, Proof/KernelValue.lean the kernel's
  result array as one function of the mask, Proof/Bridge.lean the reference's stages as the same function.

  The three frames are the generated runs; the idealization rewrote nothing, so the kernel's idealized text is its own.
-/
import proofs.«122441_j90984587199189_2_alg».proof.Defs
import proofs.«122441_j90984587199189_2_alg».proof.Proof.Gen.Kernel
import proofs.«122441_j90984587199189_2_alg».proof.Proof.Gen.Kernel.Skeleton
import proofs.«122441_j90984587199189_2_alg».proof.Proof.Gen.Kernel.Launch
import proofs.«122441_j90984587199189_2_alg».proof.Proof.Gen.Kernel.Points
import proofs.«122441_j90984587199189_2_alg».proof.Proof.Gen.Kernel.Frame
import proofs.«122441_j90984587199189_2_alg».proof.Proof.Gen.KernelIdeal
import proofs.«122441_j90984587199189_2_alg».proof.Proof.Gen.KernelIdeal.Skeleton
import proofs.«122441_j90984587199189_2_alg».proof.Proof.Gen.KernelIdeal.Launch
import proofs.«122441_j90984587199189_2_alg».proof.Proof.Gen.KernelIdeal.Points
import proofs.«122441_j90984587199189_2_alg».proof.Proof.Gen.KernelIdeal.Frame
import proofs.«122441_j90984587199189_2_alg».proof.Proof.Gen.ReferenceIdeal
import proofs.«122441_j90984587199189_2_alg».proof.Proof.Gen.Pre_finite_inputs
import proofs.«122441_j90984587199189_2_alg».proof.Proof.Gen.KernelIdeal.Value
import proofs.«122441_j90984587199189_2_alg».proof.Proof.Gen.ReferenceIdeal.Run
import proofs.«122441_j90984587199189_2_alg».proof.Proof.Gen.ReferenceIdeal.Read
import proofs.«122441_j90984587199189_2_alg».proof.Proof.KernelValue
import proofs.«122441_j90984587199189_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the score and the mask, both programs end with the thresholded score and with every mask
    image opened. -/
theorem algebraic : Cert.algebraic_KernelIdeal_ReferenceIdeal := by
  intro m ρ m' ρ' _ hagree
  refine ⟨_, _, Cert.KernelIdeal.Opening.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v2_eq, Cert.Bridge.score_eq, (hagree c).1]
  · rw [(h c).2.1, Cert.ReferenceIdeal.Read.val_main_v9_eq, Cert.Bridge.mask_eq, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
